-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S64x96 : Shape := ⟨2, ![64, 96]⟩
abbrev S64 : Shape := ⟨1, ![64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x96 .f32) (main_arg6 : FVec F S64 .f32) (main_arg7 : FVec F S64x96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S64x96 .f32 := Host.absf main_arg5
  let main_cst_6 : FVec F S_ .f32 := constant S_ .f32 0x7F800000#32
  let main_v20 : FVec F S64x96 .f32 := broadcastInDim S64x96 ![] bcast_S_S64x96 main_cst_6
  let main_v21 : IVec S64x96 1 := cmpf .olt main_v19 main_v20
  let main_c_7 : IVec S_ 1 := constantI S_ 1 1#1
  let main_v22 : IVec S_ 1 := (fun x v => Host.reduce IntOp.andi x v reducesTo_S64x96_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x96 .f32 := Host.absf main_arg7
  let main_cst_10 : FVec F S_ .f32 := constant S_ .f32 0x7F800000#32
  let main_v30 : FVec F S64x96 .f32 := broadcastInDim S64x96 ![] bcast_S_S64x96 main_cst_10
  let main_v31 : IVec S64x96 1 := cmpf .olt main_v29 main_v30
  let main_c_11 : IVec S_ 1 := constantI S_ 1 1#1
  let main_v32 : IVec S_ 1 := (fun x v => Host.reduce IntOp.andi x v reducesTo_S64x96_S_d0_1 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S64x96 .f32) (main_arg6 : FVec F S64 .f32) (main_arg7 : FVec F S64x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S64x96 : Shape := ⟨2, ![64, 96]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩
abbrev S5000x96 : Shape := ⟨2, ![5000, 96]⟩
abbrev S96x64 : Shape := ⟨2, ![96, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 74
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S64x96, .f32⟩
  | .hbm, ⟨6, _⟩ => ⟨S64, .f32⟩
  | .hbm, ⟨7, _⟩ => ⟨S64x96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S96x96, .f32⟩
  | .hbm, ⟨38, _⟩ => ⟨S96x96, .bf16⟩
  | .hbm, ⟨39, _⟩ => ⟨S96x96, .f32⟩
  | .hbm, ⟨40, _⟩ => ⟨S96x96, .bf16⟩
  | .hbm, ⟨41, _⟩ => ⟨S1x96, .f32⟩
  | .hbm, ⟨42, _⟩ => ⟨S50000x96, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x96, .f32⟩
  | .hbm, ⟨52, _⟩ => ⟨S_, .f32⟩
  | .hbm, ⟨53, _⟩ => ⟨S50000x96, .f32⟩
  | .hbm, ⟨54, _⟩ => ⟨S800000x1, .i32⟩
  | .hbm, ⟨55, _⟩ => ⟨S50000x96, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x96, .f32⟩
  | .hbm, ⟨67, _⟩ => ⟨S50000x96, .f32⟩
  | .hbm, ⟨68, _⟩ => ⟨S96x64, .f32⟩
  | .hbm, ⟨69, _⟩ => ⟨S96x64, .bf16⟩
  | .hbm, ⟨70, _⟩ => ⟨S96x64, .f32⟩
  | .hbm, ⟨71, _⟩ => ⟨S96x64, .bf16⟩
  | .hbm, ⟨72, _⟩ => ⟨S1x64, .f32⟩
  | .hbm, ⟨73, _⟩ => ⟨S50000x64, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .bf16⟩
  | .local _ .vmem, ⟨5, _⟩ => ⟨S1x96, .f32⟩
  | .local _ .vmem, ⟨6, _⟩ => ⟨S96x96, .bf16⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S96x64, .bf16⟩
  | .local _ .vmem, ⟨14, _⟩ => ⟨S1x64, .f32⟩
  | .local _ .vmem, ⟨15, _⟩ => ⟨S96x64, .bf16⟩
  | .local _ .vmem, ⟨16, _⟩ => ⟨S5000x64, .f32⟩
  | .local _ .vmem, ⟨17, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  transposes_S96x96_S96x96_1_0 : S96x96.Transposes [1, 0] S96x96
  bitsLt_bf16_f32 : FTy.bits .bf16 < FTy.bits .f32
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  transposes_S64x96_S96x64_1_0 : S64x96.Transposes [1, 0] S96x64
  shapeCasts_S64_S1x64 : S64.ShapeCasts S1x64
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S5000x96_S96x96_S5000x96_1_0_0_1_n_n_wf : DotDims.WF S5000x96 S96x96 S5000x96 [1] [0] [0] [1] [] []
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .bf16 = 32 ∨ (Rect.block (s := S96x96) S96x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x64.size a ≤ S96x64.size a
  hwx1_2 : ∀ i : grid1.Coords, EltTy.bits .bf16 = 32 ∨ (Rect.block (s := S96x64) S96x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x64.size a ≤ S96x64.size a
  hwx1_4 : ∀ i : grid1.Coords, EltTy.bits .bf16 = 32 ∨ (Rect.block (s := S96x64) S96x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S96x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S96x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S64x96 : Shape := ⟨2, ![64, 96]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩
abbrev S96x64 : Shape := ⟨2, ![96, 64]⟩
abbrev S50000x64 : Shape := ⟨2, ![50000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S64x96, .f32⟩
  | .hbm, ⟨6, _⟩ => ⟨S64, .f32⟩
  | .hbm, ⟨7, _⟩ => ⟨S64x96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S96x96, .f32⟩
  | .hbm, ⟨38, _⟩ => ⟨S50000x96, .f32⟩
  | .hbm, ⟨39, _⟩ => ⟨S1x96, .f32⟩
  | .hbm, ⟨40, _⟩ => ⟨S50000x96, .f32⟩
  | .hbm, ⟨41, _⟩ => ⟨S50000x96, .f32⟩
  | .hbm, ⟨42, _⟩ => ⟨S96x96, .f32⟩
  | .hbm, ⟨43, _⟩ => ⟨S50000x96, .f32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .i1⟩
  | .hbm, ⟨48, _⟩ => ⟨S_, .f32⟩
  | .hbm, ⟨49, _⟩ => ⟨S50000x96, .f32⟩
  | .hbm, ⟨50, _⟩ => ⟨S50000x96, .i1⟩
  | .hbm, ⟨51, _⟩ => ⟨S_, .f32⟩
  | .hbm, ⟨52, _⟩ => ⟨S_, .f32⟩
  | .hbm, ⟨53, _⟩ => ⟨S50000x96, .f32⟩
  | .hbm, ⟨54, _⟩ => ⟨S50000x96, .f32⟩
  | .hbm, ⟨55, _⟩ => ⟨S50000x96, .f32⟩
  | .hbm, ⟨56, _⟩ => ⟨S_, .f32⟩
  | .hbm, ⟨57, _⟩ => ⟨S50000x96, .f32⟩
  | .hbm, ⟨58, _⟩ => ⟨S50000x96, .f32⟩
  | .hbm, ⟨59, _⟩ => ⟨S50000x96, .f32⟩
  | .hbm, ⟨60, _⟩ => ⟨S1x800000, .i32⟩
  | .hbm, ⟨61, _⟩ => ⟨S800000, .i32⟩
  | .hbm, ⟨62, _⟩ => ⟨S1x800000, .i32⟩
  | .hbm, ⟨63, _⟩ => ⟨S800000, .i32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x96, .f32⟩
  | .hbm, ⟨73, _⟩ => ⟨S_, .f32⟩
  | .hbm, ⟨74, _⟩ => ⟨S50000x96, .f32⟩
  | .hbm, ⟨75, _⟩ => ⟨S800000x1, .i32⟩
  | .hbm, ⟨76, _⟩ => ⟨S50000x96, .f32⟩
  | .hbm, ⟨77, _⟩ => ⟨S_, .f32⟩
  | .hbm, ⟨78, _⟩ => ⟨S800000, .f32⟩
  | .hbm, ⟨79, _⟩ => ⟨S_, .f32⟩
  | .hbm, ⟨80, _⟩ => ⟨S50000, .f32⟩
  | .hbm, ⟨81, _⟩ => ⟨S800000x1, .i32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x96, .f32⟩
  | .hbm, ⟨88, _⟩ => ⟨S50000x96, .f32⟩
  | .hbm, ⟨89, _⟩ => ⟨S96x64, .f32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S96x64, .f32⟩
  | .hbm, ⟨95, _⟩ => ⟨S50000x64, .f32⟩
  | .hbm, ⟨96, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_cst_1 : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_v4 : Ref sig .tc := ⟨.hbm, 54, rfl⟩
abbrev main_call0_v5 : Ref sig .tc := ⟨.hbm, 55, rfl⟩
abbrev main_call0_cst_2 : Ref sig .tc := ⟨.hbm, 56, rfl⟩
abbrev main_call0_v6 : Ref sig .tc := ⟨.hbm, 57, rfl⟩
abbrev main_call0_v7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  transposes_S64x96_S96x64_1_0 : S64x96.Transposes [1, 0] S96x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«115761_j60902636257634_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.SageLayer.lean ====
/-
  One graph-convolution layer read at an entry, at the exact (extended-real) values.

  For a feature matrix x and an aggregated-neighbour matrix mean, both N×K, two weight matrices A and B, both K×C
  (the transposes of the layer's two weights), and a bias vector of length C, the layer's value at row r, column c is
      (Σ_k x(r,k)·A(k,c)) + (Σ_k mean(r,k)·B(k,c)) + bias(c),
  optionally passed through the exponential linear unit  y ↦ y for y > 0, eʸ − 1 otherwise.

  Two spellings of it meet here. A matrix unit accumulating both products into zero, adding them, then adding the bias
  kept as one row copied down the rows; and the host's two products with the bias added BETWEEN them. They agree entry
  by entry because addition of extended reals is commutative and associative: (a + b) + m = (a + m) + b with no
  finiteness needed. The unit's two spellings agree too: below or at zero, the host's 1·(e^y − 1) evaluated at the
  guarded argument (y where y ≤ 0) is e^y − 1; above zero both give y.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«115761_j60902636257634_1_alg».proof.Proof.LibPlainMatmul
import proofs.«115761_j60902636257634_1_alg».proof.Proof.LibPlainDot

noncomputable section

namespace Cert.Sage

open Idealize.ShloMosaic Idealize.ShloMosaic.ValueIdx

variable {N K C : ℕ}

/-- The layer before its activation, at row `r` and column `c`. -/
def affineAt (x mean : (⟨2, ![N, K]⟩ : Shape).Idx → EReal) (A B : (⟨2, ![K, C]⟩ : Shape).Idx → EReal)
    (bias : (⟨1, ![C]⟩ : Shape).Idx → EReal) (r : Fin N) (c : Fin C) : EReal :=
  (∑ k : Fin K, x (ix2 r k) * A (ix2 k c)) + (∑ k : Fin K, mean (ix2 r k) * B (ix2 k c)) + bias (ix1 c)

/-- The exponential linear unit on the extended reals: y above zero, e^y − 1 otherwise. -/
def elu (y : EReal) : EReal := Scalar.select (Ideal.cmp .ogt y 0) y (Ideal.exp y - 1)

/-- The layer without activation, as a whole array. -/
def linear (x mean : (⟨2, ![N, K]⟩ : Shape).Idx → EReal) (A B : (⟨2, ![K, C]⟩ : Shape).Idx → EReal)
    (bias : (⟨1, ![C]⟩ : Shape).Idx → EReal) : (⟨2, ![N, C]⟩ : Shape).Idx → EReal :=
  fun j => affineAt x mean A B bias (j 0) (j 1)

/-- The layer with the exponential linear unit, as a whole array. -/
def activated (x mean : (⟨2, ![N, K]⟩ : Shape).Idx → EReal) (A B : (⟨2, ![K, C]⟩ : Shape).Idx → EReal)
    (bias : (⟨1, ![C]⟩ : Shape).Idx → EReal) : (⟨2, ![N, C]⟩ : Shape).Idx → EReal :=
  fun j => elu (affineAt x mean A B bias (j 0) (j 1))

/-- The matrix unit's spelling: both products accumulated into zero, added, then the bias row copied down the rows
    added — read at (r, c). The bias row [1, C] is the bias vector kept as one row. -/
theorem unit_affine_apply {M : ℕ} {φ₁ φ₂ : FTy} (X Y : FVec Ideal ⟨2, ![M, K]⟩ φ₁) (A B : FVec Ideal ⟨2, ![K, C]⟩ φ₂)
    (row : FVec Ideal ⟨2, ![1, C]⟩ .f32) (hb : (⟨2, ![1, C]⟩ : Shape).Broadcasts ⟨2, ![M, C]⟩) (r : Fin M) (c : Fin C) :
    addf (addf (FloatOps.matmul (DotDims.plain M K C) none X A (constant (F := Ideal) ⟨2, ![M, C]⟩ .f32 0x00000000#32))
          (FloatOps.matmul (DotDims.plain M K C) none Y B (constant (F := Ideal) ⟨2, ![M, C]⟩ .f32 0x00000000#32)))
        (broadcastTo ⟨2, ![M, C]⟩ row hb) (ix2 r c)
      = (∑ k : Fin K, X (ix2 r k) * A (ix2 k c)) + (∑ k : Fin K, Y (ix2 r k) * B (ix2 k c)) + row (ix2 (0 : Fin 1) c) := by
  rw [addf_apply, addf_apply, PlainMatmul.apply_zero, PlainMatmul.apply_zero, broadcastTo_1b_ab_apply]

/-- The host's spelling: the first product, the bias added (a vector kept as a row [1, C] by a broadcast along axis 1,
    then copied down the rows by a broadcast along both axes), then the second product added — read at (r, c); the
    same three terms in another order. -/
theorem host_affine_apply (x mean : FVec Ideal ⟨2, ![N, K]⟩ .f32) (A B : FVec Ideal ⟨2, ![K, C]⟩ .f32)
    (bias : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2)) (r : Fin N) (c : Fin C) :
    addf (addf (Host.dotGeneral (F := Ideal) (DotDims.plain N K C) none x A)
          (broadcastInDim ⟨2, ![N, C]⟩ ![0, 1] h2 (broadcastInDim ⟨2, ![1, C]⟩ ![1] h1 bias)))
        (Host.dotGeneral (F := Ideal) (DotDims.plain N K C) none mean B) (ix2 r c)
      = affineAt x mean A B bias r c := by
  have hrow : broadcastInDim ⟨2, ![N, C]⟩ ![0, 1] h2 (broadcastInDim ⟨2, ![1, C]⟩ ![1] h1 bias) (ix2 r c) = bias (ix1 c) := by
    refine (broadcastInDim_apply _ h2 _ (ix2 r c) (ix2 (0 : Fin 1) c) fun a => ?_).trans
      (broadcastInDim_apply _ h1 _ (ix2 (0 : Fin 1) c) (ix1 c) fun a => ?_)
    · match a with
      | ⟨0, _⟩ => rfl
      | ⟨1, _⟩ =>
        show c.val = if C = 1 then 0 else c.val
        split
        · have := c.isLt; omega
        · rfl
    · match a with
      | ⟨0, _⟩ =>
        show c.val = if C = 1 then 0 else c.val
        split
        · have := c.isLt; omega
        · rfl
  rw [addf_apply, addf_apply, PlainDot.apply, PlainDot.apply, hrow]
  unfold affineAt
  exact add_right_comm _ _ _

/-- The unit as the kernel spells it (a select on "above zero" between y and e^y − 1, the zero and the one as f32
    words) is `elu`. -/
theorem elu_kernel (y : EReal) :
    Scalar.select (Ideal.cmp .ogt y (Ideal.ofBits .f32 0x00000000#32)) y (Ideal.exp y - Ideal.ofBits .f32 0x3F800000#32) = elu y := by
  rw [Ideal.ofBits_zero_f32, Ideal.ofBits_one_f32]; rfl

/-- The unit as the host spells it — a select on "above zero" between y and 1·(e^g − 1), g the guarded argument
    (zero above zero, y otherwise) — is `elu`. -/
theorem elu_host (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu y := by
  rw [Ideal.ofBits_zero_f32, Ideal.ofBits_one_f32, one_mul]
  unfold elu
  rcases BitVec.eq_zero_or_eq_one (Ideal.cmp .ogt y 0) with h | h
  · rw [h, select_zero, select_zero, select_zero]
  · rw [h, select_one, select_one]

end Cert.Sage

end
-- ==== Proof.KernelBody.lean ====
/-
  The two kernel bodies read at an entry, at the exact values.

  Each body loads a block of 5000 rows of the features and of the neighbour means, the two (transposed) weight matrices and the
  bias kept as one row, and stores ONE value: both matrix products accumulated into zero, added, the bias row copied down
  the rows added — and, in the first layer only, the exponential linear unit of that. The changes of float format on the
  way into the matrix unit are the identity on exact values, and so are the casts of a shape to itself. So at row r and
  column c of the block the stored value is
      Σ_k x(r,k)·A(k,c) + Σ_k mean(r,k)·B(k,c) + row(0,c)      (second layer),
  and the unit of it (first layer).
-/
import proofs.«115761_j60902636257634_1_alg».proof.Proof.Gen.KernelIdeal.Skeleton
import proofs.«115761_j60902636257634_1_alg».proof.Proof.SageLayer

noncomputable section

namespace Cert.KernelIdeal.Body

open Cert.KernelIdeal Cert.KernelIdeal.Gen Idealize.ShloMosaic Idealize.ShloMosaic.ValueIdx

/-- The first layer's stored value at (r, c). -/
theorem pay0_apply (v0 v2 : Vec Ideal S5000x96 .f32) (v5 v7 : Vec Ideal S96x96 .bf16) (v9 : Vec Ideal S1x96 .f32)
    (r : Fin 5000) (c : Fin 96) :
    k0_pay1 (F := Ideal) v0 v2 v5 v7 v9 (ix2 r c)
      = Sage.elu ((∑ k : Fin 96, v0 (ix2 r k) * v5 (ix2 k c)) + (∑ k : Fin 96, v2 (ix2 r k) * v7 (ix2 k c))
          + v9 (ix2 (0 : Fin 1) c)) := by
  have key : ∀ Z : FVec Ideal S5000x96 .f32,
      select (cmpf .ogt Z (broadcast S5000x96 (Scalar.ofBits (F := Ideal) .f32 0x00000000#32))) Z
          (subf (exp Z) (broadcast S5000x96 (Scalar.ofBits (F := Ideal) .f32 0x3F800000#32))) (ix2 r c)
        = Sage.elu (Z (ix2 r c)) := fun Z => Sage.elu_kernel (Z (ix2 r c))
  unfold k0_pay1
  refine (key _).trans (congrArg Sage.elu ?_)
  simp only [shapeCast_self]
  exact Sage.unit_affine_apply (M := 5000) (K := 96) (C := 96) (φ₁ := .bf16) (φ₂ := .bf16) v0 v2 v5 v7 v9
    broadcasts_S1x96_S5000x96 r c

/-- The second layer's stored value at (r, c). -/
theorem pay1_apply (v0 v3 : Vec Ideal S5000x96 .f32) (v6 v8 : Vec Ideal S96x64 .bf16) (v10 : Vec Ideal S1x64 .f32)
    (r : Fin 5000) (c : Fin 64) :
    k1_pay1 (F := Ideal) v0 v3 v6 v8 v10 (ix2 r c)
      = (∑ k : Fin 96, v0 (ix2 r k) * v6 (ix2 k c)) + (∑ k : Fin 96, v3 (ix2 r k) * v8 (ix2 k c))
          + v10 (ix2 (0 : Fin 1) c) := by
  unfold k1_pay1
  simp only [shapeCast_self]
  exact Sage.unit_affine_apply (M := 5000) (K := 96) (C := 64) (φ₁ := .bf16) (φ₂ := .bf16) v0 v3 v6 v8 v10
    broadcasts_S1x64_S5000x64 r c

end Cert.KernelIdeal.Body

end
-- ==== Proof.KernelBlocks.lean ====
/-
  From blocks to arrays, for both launches. Each launch walks ten grid points; at point t it stages rows 5000·t … 5000·t + 4999
  of the feature matrix and of the neighbour-mean matrix, the two weight matrices and the bias row whole, and writes back
  the body's value as rows 5000·t … 5000·t + 4999 of the output. The body's value at (p, c) depends on row p of the two staged
  blocks only, so what point t writes back is block t of ONE whole-array function of the five input arrays — the layer read
  at row 5000·t + p — and the ten blocks tile the output: after the launch the output array IS that function.
  Stated at an arbitrary contents `V` of the buffers when the launch begins, as the frame's own region halves are.
-/
import proofs.«115761_j60902636257634_1_alg».proof.Proof.FrameKernelIdeal
import proofs.«115761_j60902636257634_1_alg».proof.Proof.KernelBody
import Idealize.ShloMosaic.Lib.Pipeline.Value
import Idealize.ShloMosaic.Lib.Tactic

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- The first layer as one function of the launch's five input arrays: the bias read off its one row. -/
def layer1 (X Mn : S50000x96.Idx → EReal) (A B : S96x96.Idx → EReal) (row : S1x96.Idx → EReal) : S50000x96.Idx → EReal :=
  Sage.activated X Mn A B (fun i => row (ix2 (0 : Fin 1) (i 0)))

/-- The second layer as one function of the launch's five input arrays. -/
def layer2 (X Mn : S50000x96.Idx → EReal) (A B : S96x64.Idx → EReal) (row : S1x64.Idx → EReal) : S50000x64.Idx → EReal :=
  Sage.linear X Mn A B (fun i => row (ix2 (0 : Fin 1) (i 0)))

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the feature, mean and output windows move one block of 5000 rows per point, the
    weights and the bias row stay put. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point `t` is rows 5000·t … 5000·t + 4999 of its array. -/
theorem feat0_apply (c : Dev nD) (t : Fin cfg0.N) (y : S5000x96.Idx) (i : S50000x96.Idx)
    (h0 : (i 0).val = 5000 * t.val + (y 0).val) (h1 : (i 1).val = (y 1).val) :
    (iblk0 V c 0 t : Vec Ideal S5000x96 .f32) y = (V c main_arg0 : S50000x96.Idx → EReal) i := by
  obtain ⟨e0, e1, -⟩ := idx0 t
  unfold iblk0
  rw [View.read_apply]
  show V c main_arg0 (((cfg0.win 0).blk t).view.emb y) = V c main_arg0 i
  have he : ((cfg0.win 0).blk t).view.emb y = i := by
    funext a; apply Fin.ext
    match a with
    | ⟨0, _⟩ => show win0_0.index t (0 : Fin 2) * 5000 + 1 * (y 0).val = (i 0).val; rw [e0, h0]; omega
    | ⟨1, _⟩ => show win0_0.index t (1 : Fin 2) * 96 + 1 * (y 1).val = (i 1).val; rw [e1, h1]; omega
  rw [he]

/-- The mean window's block at point `t` is the same rows of its array. -/
theorem mean0_apply (c : Dev nD) (t : Fin cfg0.N) (y : S5000x96.Idx) (i : S50000x96.Idx)
    (h0 : (i 0).val = 5000 * t.val + (y 0).val) (h1 : (i 1).val = (y 1).val) :
    (iblk0 V c 1 t : Vec Ideal S5000x96 .f32) y = (V c main_v22 : S50000x96.Idx → EReal) i := by
  obtain ⟨-, -, e0, e1, -⟩ := idx0 t
  unfold iblk0
  rw [View.read_apply]
  show V c main_v22 (((cfg0.win 1).blk t).view.emb y) = V c main_v22 i
  have he : ((cfg0.win 1).blk t).view.emb y = i := by
    funext a; apply Fin.ext
    match a with
    | ⟨0, _⟩ => show win0_1.index t (0 : Fin 2) * 5000 + 1 * (y 0).val = (i 0).val; rw [e0, h0]; omega
    | ⟨1, _⟩ => show win0_1.index t (1 : Fin 2) * 96 + 1 * (y 1).val = (i 1).val; rw [e1, h1]; omega
  rw [he]

/-- The first weight window's one block is its whole array. -/
theorem wl0_apply (c : Dev nD) (t : Fin cfg0.N) (y : S96x96.Idx) :
    (iblk0 V c 2 t : Vec Ideal S96x96 .bf16) y = (V c main_v24 : S96x96.Idx → EReal) y := by
  obtain ⟨-, -, -, -, e0, e1, -⟩ := idx0 t
  unfold iblk0
  rw [View.read_apply]
  show V c main_v24 (((cfg0.win 2).blk t).view.emb y) = V c main_v24 y
  have he : ((cfg0.win 2).blk t).view.emb y = y := by
    funext a; apply Fin.ext
    match a with
    | ⟨0, _⟩ => show win0_2.index t (0 : Fin 2) * 96 + 1 * (y 0).val = (y 0).val; rw [e0]; omega
    | ⟨1, _⟩ => show win0_2.index t (1 : Fin 2) * 96 + 1 * (y 1).val = (y 1).val; rw [e1]; omega
  rw [he]

/-- The bias window's one block is its whole row. -/
theorem row0_apply (c : Dev nD) (t : Fin cfg0.N) (y : S1x96.Idx) :
    (iblk0 V c 3 t : Vec Ideal S1x96 .f32) y = (V c main_v27 : S1x96.Idx → EReal) y := by
  obtain ⟨-, -, -, -, -, -, e0, e1, -⟩ := idx0 t
  unfold iblk0
  rw [View.read_apply]
  show V c main_v27 (((cfg0.win 3).blk t).view.emb y) = V c main_v27 y
  have he : ((cfg0.win 3).blk t).view.emb y = y := by
    funext a; apply Fin.ext
    match a with
    | ⟨0, _⟩ => show win0_3.index t (0 : Fin 2) * 1 + 1 * (y 0).val = (y 0).val; rw [e0]; omega
    | ⟨1, _⟩ => show win0_3.index t (1 : Fin 2) * 96 + 1 * (y 1).val = (y 1).val; rw [e1]; omega
  rw [he]

/-- The second weight window's one block is its whole array. -/
theorem wr0_apply (c : Dev nD) (t : Fin cfg0.N) (y : S96x96.Idx) :
    (iblk0 V c 4 t : Vec Ideal S96x96 .bf16) y = (V c main_v26 : S96x96.Idx → EReal) y := by
  obtain ⟨-, -, -, -, -, -, -, -, e0, e1, -⟩ := idx0 t
  unfold iblk0
  rw [View.read_apply]
  show V c main_v26 (((cfg0.win 4).blk t).view.emb y) = V c main_v26 y
  have he : ((cfg0.win 4).blk t).view.emb y = y := by
    funext a; apply Fin.ext
    match a with
    | ⟨0, _⟩ => show win0_4.index t (0 : Fin 2) * 96 + 1 * (y 0).val = (y 0).val; rw [e0]; omega
    | ⟨1, _⟩ => show win0_4.index t (1 : Fin 2) * 96 + 1 * (y 1).val = (y 1).val; rw [e1]; omega
  rw [he]

/-- What point `t` writes back is block `t` of the layer's whole-array value of the region's five input arrays. -/
theorem flushed0_eq (c : Dev nD) (t : Fin cfg0.N) :
    (dat0 V c).flushed 5 t = ((cfg0.win 5).blk t).view.read (Elt Ideal)
      (layer1 (V c main_arg0) (V c main_v22) (V c main_v24) (V c main_v26) (V c main_v27)) := by
  show (cfg0.win 5).cut (grid0.coords t) ((dat0 V c).after 5 t) = _
  rw [after0_5]
  unfold out0_5
  rw [View.canon_unit_zero hz]
  simp only [View.ld_unit_zero (S := S5000x96) hz, View.ld_unit_zero (S := S96x96) hz, View.ld_unit_zero (S := S1x96) hz]
  funext j
  obtain ⟨p, q, rfl⟩ : ∃ (p : Fin 5000) (q : Fin 96), j = ix2 p q := ⟨j 0, j 1, eq_ix2 j⟩
  have hN : cfg0.N = 10 := N_0
  have hp := p.isLt
  have ht := t.isLt
  obtain ⟨-, -, -, -, -, -, -, -, -, -, e50, e51⟩ := idx0 t
  have hr : 5000 * t.val + p.val < 50000 := by omega
  have hemb : ((cfg0.win 5).blk t).view.emb (ix2 p q) = ix2 (⟨5000 * t.val + p.val, hr⟩ : Fin 50000) q := by
    funext a; apply Fin.ext
    match a with
    | ⟨0, _⟩ => show win0_5.index t (0 : Fin 2) * 5000 + 1 * p.val = 5000 * t.val + p.val; rw [e50]; omega
    | ⟨1, _⟩ => show win0_5.index t (1 : Fin 2) * 96 + 1 * q.val = q.val; rw [e51]; omega
  show k0_pay1 (iblk0 V c 0 t) (iblk0 V c 1 t) (iblk0 V c 2 t) (iblk0 V c 4 t) (iblk0 V c 3 t) (ix2 p q)
    = layer1 (V c main_arg0) (V c main_v22) (V c main_v24) (V c main_v26) (V c main_v27) (((cfg0.win 5).blk t).view.emb (ix2 p q))
  rw [hemb]
  refine (Body.pay0_apply (iblk0 V c 0 t) (iblk0 V c 1 t) (iblk0 V c 2 t) (iblk0 V c 4 t) (iblk0 V c 3 t) p q).trans ?_
  refine congrArg Sage.elu (congrArg₂ (· + ·) (congrArg₂ (· + ·) (Finset.sum_congr rfl fun k _ => ?_) (Finset.sum_congr rfl fun k _ => ?_)) ?_)
  · exact congrArg₂ (· * ·) (feat0_apply V c t (ix2 p k) (ix2 (⟨5000 * t.val + p.val, hr⟩ : Fin 50000) k) rfl rfl) (wl0_apply V c t (ix2 k q))
  · exact congrArg₂ (· * ·) (mean0_apply V c t (ix2 p k) (ix2 (⟨5000 * t.val + p.val, hr⟩ : Fin 50000) k) rfl rfl) (wr0_apply V c t (ix2 k q))
  · exact row0_apply V c t (ix2 (0 : Fin 1) q)

/-- An index of the output array is in point `t`'s block iff each coordinate is in the block's range on its axis. -/
theorem mem_blk0 (t : Fin cfg0.N) (i : S50000x96.Idx) :
    i ∈ ((cfg0.win 5).blk t).view.set ↔ ∀ a : Fin 2, win0_5.index t a * S5000x96.size a ≤ (i a).val
      ∧ (i a).val < win0_5.index t a * S5000x96.size a + S5000x96.size a := by
  show i ∈ ((View.whole main_v28).slice (win0_5.rect t)).set ↔ _
  rw [View.set_slice_whole, Rect.mem_set_unit]
  exact Iff.rfl

/-- The ten blocks tile the output array: row r is in the block of point r / 5000. -/
theorem cover0 (i : S50000x96.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 96 := (i 1).isLt
  have hq : (i 0).val / 5000 < cfg0.N := by omega
  refine ⟨⟨(i 0).val / 5000, hq⟩, flush0_5 _, ?_⟩
  rw [mem_blk0]
  obtain ⟨-, -, -, -, -, -, -, -, -, -, e50, e51⟩ := idx0 ⟨(i 0).val / 5000, hq⟩
  intro a
  match a with
  | ⟨0, _⟩ =>
    show win0_5.index ⟨(i 0).val / 5000, hq⟩ (0 : Fin 2) * 5000 ≤ (i 0).val
      ∧ (i 0).val < win0_5.index ⟨(i 0).val / 5000, hq⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hq⟩ (1 : Fin 2) * 96 ≤ (i 1).val
      ∧ (i 1).val < win0_5.index ⟨(i 0).val / 5000, hq⟩ (1 : Fin 2) * 96 + 96
    rw [e51]; omega

/-- The output array after the region: the layer's value of the five input arrays as the region finds them. -/
theorem final0 (c : Dev nD) :
    (dat0 V c).arrAt 5 cfg0.N = layer1 (V c main_arg0) (V c main_v22) (V c main_v24) (V c main_v26) (V c main_v27) :=
  (dat0 V c).arrAt_eq_of_cover 5 _ (fun t _ => flushed0_eq V c t) cover0

/-! ## Region 1 -/

/-- The printed index maps over the grid: the feature, mean and output windows move one block of 5000 rows per point, the
    weights and the bias row stay put. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature window's block at point `t` is rows 5000·t … 5000·t + 4999 of its array. -/
theorem feat1_apply (c : Dev nD) (t : Fin cfg1.N) (y : S5000x96.Idx) (i : S50000x96.Idx)
    (h0 : (i 0).val = 5000 * t.val + (y 0).val) (h1 : (i 1).val = (y 1).val) :
    (iblk1 V c 0 t : Vec Ideal S5000x96 .f32) y = (V c main_v28 : S50000x96.Idx → EReal) i := by
  obtain ⟨e0, e1, -⟩ := idx1 t
  unfold iblk1
  rw [View.read_apply]
  show V c main_v28 (((cfg1.win 0).blk t).view.emb y) = V c main_v28 i
  have he : ((cfg1.win 0).blk t).view.emb y = i := by
    funext a; apply Fin.ext
    match a with
    | ⟨0, _⟩ => show win1_0.index t (0 : Fin 2) * 5000 + 1 * (y 0).val = (i 0).val; rw [e0, h0]; omega
    | ⟨1, _⟩ => show win1_0.index t (1 : Fin 2) * 96 + 1 * (y 1).val = (i 1).val; rw [e1, h1]; omega
  rw [he]

/-- The mean window's block at point `t` is the same rows of its array. -/
theorem mean1_apply (c : Dev nD) (t : Fin cfg1.N) (y : S5000x96.Idx) (i : S50000x96.Idx)
    (h0 : (i 0).val = 5000 * t.val + (y 0).val) (h1 : (i 1).val = (y 1).val) :
    (iblk1 V c 1 t : Vec Ideal S5000x96 .f32) y = (V c main_v47 : S50000x96.Idx → EReal) i := by
  obtain ⟨-, -, e0, e1, -⟩ := idx1 t
  unfold iblk1
  rw [View.read_apply]
  show V c main_v47 (((cfg1.win 1).blk t).view.emb y) = V c main_v47 i
  have he : ((cfg1.win 1).blk t).view.emb y = i := by
    funext a; apply Fin.ext
    match a with
    | ⟨0, _⟩ => show win1_1.index t (0 : Fin 2) * 5000 + 1 * (y 0).val = (i 0).val; rw [e0, h0]; omega
    | ⟨1, _⟩ => show win1_1.index t (1 : Fin 2) * 96 + 1 * (y 1).val = (i 1).val; rw [e1, h1]; omega
  rw [he]

/-- The first weight window's one block is its whole array. -/
theorem wl1_apply (c : Dev nD) (t : Fin cfg1.N) (y : S96x64.Idx) :
    (iblk1 V c 2 t : Vec Ideal S96x64 .bf16) y = (V c main_v49 : S96x64.Idx → EReal) y := by
  obtain ⟨-, -, -, -, e0, e1, -⟩ := idx1 t
  unfold iblk1
  rw [View.read_apply]
  show V c main_v49 (((cfg1.win 2).blk t).view.emb y) = V c main_v49 y
  have he : ((cfg1.win 2).blk t).view.emb y = y := by
    funext a; apply Fin.ext
    match a with
    | ⟨0, _⟩ => show win1_2.index t (0 : Fin 2) * 96 + 1 * (y 0).val = (y 0).val; rw [e0]; omega
    | ⟨1, _⟩ => show win1_2.index t (1 : Fin 2) * 64 + 1 * (y 1).val = (y 1).val; rw [e1]; omega
  rw [he]

/-- The bias window's one block is its whole row. -/
theorem row1_apply (c : Dev nD) (t : Fin cfg1.N) (y : S1x64.Idx) :
    (iblk1 V c 3 t : Vec Ideal S1x64 .f32) y = (V c main_v52 : S1x64.Idx → EReal) y := by
  obtain ⟨-, -, -, -, -, -, e0, e1, -⟩ := idx1 t
  unfold iblk1
  rw [View.read_apply]
  show V c main_v52 (((cfg1.win 3).blk t).view.emb y) = V c main_v52 y
  have he : ((cfg1.win 3).blk t).view.emb y = y := by
    funext a; apply Fin.ext
    match a with
    | ⟨0, _⟩ => show win1_3.index t (0 : Fin 2) * 1 + 1 * (y 0).val = (y 0).val; rw [e0]; omega
    | ⟨1, _⟩ => show win1_3.index t (1 : Fin 2) * 64 + 1 * (y 1).val = (y 1).val; rw [e1]; omega
  rw [he]

/-- The second weight window's one block is its whole array. -/
theorem wr1_apply (c : Dev nD) (t : Fin cfg1.N) (y : S96x64.Idx) :
    (iblk1 V c 4 t : Vec Ideal S96x64 .bf16) y = (V c main_v51 : S96x64.Idx → EReal) y := by
  obtain ⟨-, -, -, -, -, -, -, -, e0, e1, -⟩ := idx1 t
  unfold iblk1
  rw [View.read_apply]
  show V c main_v51 (((cfg1.win 4).blk t).view.emb y) = V c main_v51 y
  have he : ((cfg1.win 4).blk t).view.emb y = y := by
    funext a; apply Fin.ext
    match a with
    | ⟨0, _⟩ => show win1_4.index t (0 : Fin 2) * 96 + 1 * (y 0).val = (y 0).val; rw [e0]; omega
    | ⟨1, _⟩ => show win1_4.index t (1 : Fin 2) * 64 + 1 * (y 1).val = (y 1).val; rw [e1]; omega
  rw [he]

/-- What point `t` writes back is block `t` of the layer's whole-array value of the region's five input arrays. -/
theorem flushed1_eq (c : Dev nD) (t : Fin cfg1.N) :
    (dat1 V c).flushed 5 t = ((cfg1.win 5).blk t).view.read (Elt Ideal)
      (layer2 (V c main_v28) (V c main_v47) (V c main_v49) (V c main_v51) (V c main_v52)) := by
  show (cfg1.win 5).cut (grid1.coords t) ((dat1 V c).after 5 t) = _
  rw [after1_5]
  unfold out1_5
  rw [View.canon_unit_zero hz]
  simp only [View.ld_unit_zero (S := S5000x96) hz, View.ld_unit_zero (S := S96x64) hz, View.ld_unit_zero (S := S1x64) hz]
  funext j
  obtain ⟨p, q, rfl⟩ : ∃ (p : Fin 5000) (q : Fin 64), j = ix2 p q := ⟨j 0, j 1, eq_ix2 j⟩
  have hN : cfg1.N = 10 := N_1
  have hp := p.isLt
  have ht := t.isLt
  obtain ⟨-, -, -, -, -, -, -, -, -, -, e50, e51⟩ := idx1 t
  have hr : 5000 * t.val + p.val < 50000 := by omega
  have hemb : ((cfg1.win 5).blk t).view.emb (ix2 p q) = ix2 (⟨5000 * t.val + p.val, hr⟩ : Fin 50000) q := by
    funext a; apply Fin.ext
    match a with
    | ⟨0, _⟩ => show win1_5.index t (0 : Fin 2) * 5000 + 1 * p.val = 5000 * t.val + p.val; rw [e50]; omega
    | ⟨1, _⟩ => show win1_5.index t (1 : Fin 2) * 64 + 1 * q.val = q.val; rw [e51]; omega
  show k1_pay1 (iblk1 V c 0 t) (iblk1 V c 1 t) (iblk1 V c 2 t) (iblk1 V c 4 t) (iblk1 V c 3 t) (ix2 p q)
    = layer2 (V c main_v28) (V c main_v47) (V c main_v49) (V c main_v51) (V c main_v52) (((cfg1.win 5).blk t).view.emb (ix2 p q))
  rw [hemb]
  refine (Body.pay1_apply (iblk1 V c 0 t) (iblk1 V c 1 t) (iblk1 V c 2 t) (iblk1 V c 4 t) (iblk1 V c 3 t) p q).trans ?_
  refine (congrArg₂ (· + ·) (congrArg₂ (· + ·) (Finset.sum_congr rfl fun k _ => ?_) (Finset.sum_congr rfl fun k _ => ?_)) ?_)
  · exact congrArg₂ (· * ·) (feat1_apply V c t (ix2 p k) (ix2 (⟨5000 * t.val + p.val, hr⟩ : Fin 50000) k) rfl rfl) (wl1_apply V c t (ix2 k q))
  · exact congrArg₂ (· * ·) (mean1_apply V c t (ix2 p k) (ix2 (⟨5000 * t.val + p.val, hr⟩ : Fin 50000) k) rfl rfl) (wr1_apply V c t (ix2 k q))
  · exact row1_apply V c t (ix2 (0 : Fin 1) q)

/-- An index of the output array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v53).slice (win1_5.rect t)).set ↔ _
  rw [View.set_slice_whole, Rect.mem_set_unit]
  exact Iff.rfl

/-- The ten blocks tile the output array: row r is in the block of point r / 5000. -/
theorem cover1 (i : S50000x64.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 64 := (i 1).isLt
  have hq : (i 0).val / 5000 < cfg1.N := by omega
  refine ⟨⟨(i 0).val / 5000, hq⟩, flush1_5 _, ?_⟩
  rw [mem_blk1]
  obtain ⟨-, -, -, -, -, -, -, -, -, -, e50, e51⟩ := idx1 ⟨(i 0).val / 5000, hq⟩
  intro a
  match a with
  | ⟨0, _⟩ =>
    show win1_5.index ⟨(i 0).val / 5000, hq⟩ (0 : Fin 2) * 5000 ≤ (i 0).val
      ∧ (i 0).val < win1_5.index ⟨(i 0).val / 5000, hq⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hq⟩ (1 : Fin 2) * 64 ≤ (i 1).val
      ∧ (i 1).val < win1_5.index ⟨(i 0).val / 5000, hq⟩ (1 : Fin 2) * 64 + 64
    rw [e51]; omega

/-- The output array after the region: the layer's value of the five input arrays as the region finds them. -/
theorem final1 (c : Dev nD) :
    (dat1 V c).arrAt 5 cfg1.N = layer2 (V c main_v28) (V c main_v47) (V c main_v49) (V c main_v51) (V c main_v52) :=
  (dat1 V c).arrAt_eq_of_cover 5 _ (fun t _ => flushed1_eq V c t) cover1

end Cert.KernelIdeal.Blocks

end
-- ==== Proof.KernelHost.lean ====
/-
  The kernel program's host operations read back, at the exact values.

  Before the first launch the host computes, from the arguments: the edges' two endpoint rows, the mean of the features over
  each node's in-neighbours, the two first-layer weights transposed (the change to a narrower float format is the
  identity on exact values), and the first bias kept as one row. Between the launches it computes the same mean of the
  first launch's output over the same endpoints, the second-layer weights transposed and the second bias as one row.
  So the first launch's output array is the first layer of the arguments, and the second launch's output array — the
  program's result — is the second layer of that.
-/
import proofs.«115761_j60902636257634_1_alg».proof.Proof.KernelBlocks
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
  Idealize.ShloMosaic.ValueIdx

section Stages

variable {F : FTy → Type} [FloatOps F]

/-- The edges' source endpoints: row 0 of the edge list. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination endpoints: row 1 of the edge list. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A source index as the gather takes it: a negative one wrapped by the number of rows, kept as a column. -/
def wrapped (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The mean of the features of each node's in-neighbours: the gathered source rows summed into the destination rows,
    divided by the number of edges into the row, at least one. -/
def meanAgg (feat : (⟨S50000x96, .f32⟩ : BufTy).Contents (Elt F)) (s d : (⟨S800000, .i32⟩ : BufTy).Contents (Elt F)) : (⟨S50000x96, .f32⟩ : BufTy).Contents (Elt F) :=
  Host.divf
    (Host.scatterAdd scatter_S50000x96_S800000x1_S800000x96_1_0_0_1
      (broadcastInDim S50000x96 ![] bcast_S_S50000x96 (constant S_ .f32 0x00000000#32))
      (broadcastInDim S800000x1 ![0] bcast_S800000_S800000x1_0 d)
      (Host.gather gather_S50000x96_S800000x1_S800000x96_1_0_n_n_0_1_196 feat (wrapped s)))
    (broadcastInDim S50000x96 ![0, 1] bcast_S50000x1_S50000x96_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

end Stages

variable (m : (ℓ : Loc nD τ sig) → Buf (Elt Ideal) ℓ) (ρ : Dev nD → PrngReg)

attribute [local irreducible] Host.gather Host.scatterAdd

/-! ## Before the first launch -/

theorem V1_x (c : Dev nD) : V1 m ρ c main_arg0 = m ((c : Thread nD τ).loc main_arg0) := by
  show StableHlo.after hostOps0 (W0 m ρ c) (Proc.devRef .tc main_arg0) = _
  after_results_simp

set_option maxRecDepth 16384 in
theorem V1_mean (c : Dev nD) :
    V1 m ρ c main_v22 = meanAgg (F := Ideal) (m ((c : Thread nD τ).loc main_arg0))
      (srcOf (m ((c : Thread nD τ).loc main_arg1))) (dstOf (m ((c : Thread nD τ).loc main_arg1))) := by
  show StableHlo.after hostOps0 (W0 m ρ c) (Proc.devRef .tc main_v22) = _
  after_results_simp
  rfl

theorem V1_wl (c : Dev nD) :
    V1 m ρ c main_v24 = truncf (F := Ideal) .bf16 (transpose S96x96 [1, 0] (m ((c : Thread nD τ).loc main_arg2)) transposes_S96x96_S96x96_1_0) bitsLt_bf16_f32 := by
  show StableHlo.after hostOps0 (W0 m ρ c) (Proc.devRef .tc main_v24) = _
  after_results_simp

theorem V1_wr (c : Dev nD) :
    V1 m ρ c main_v26 = truncf (F := Ideal) .bf16 (transpose S96x96 [1, 0] (m ((c : Thread nD τ).loc main_arg4)) transposes_S96x96_S96x96_1_0) bitsLt_bf16_f32 := by
  show StableHlo.after hostOps0 (W0 m ρ c) (Proc.devRef .tc main_v26) = _
  after_results_simp

theorem V1_row (c : Dev nD) :
    V1 m ρ c main_v27 = shapeCast S1x96 (m ((c : Thread nD τ).loc main_arg3)) shapeCasts_S96_S1x96 := by
  show StableHlo.after hostOps0 (W0 m ρ c) (Proc.devRef .tc main_v27) = _
  after_results_simp
  rfl

theorem W1_src (c : Dev nD) : W1 m ρ c (Proc.devRef .tc main_v1) = srcOf (F := Ideal) (m ((c : Thread nD τ).loc main_arg1)) := by
  show StableHlo.after hostOps0 (W0 m ρ c) (Proc.devRef .tc main_v1) = _
  after_results_simp
  rfl

theorem W1_dst (c : Dev nD) : W1 m ρ c (Proc.devRef .tc main_v3) = dstOf (F := Ideal) (m ((c : Thread nD τ).loc main_arg1)) := by
  show StableHlo.after hostOps0 (W0 m ρ c) (Proc.devRef .tc main_v3) = _
  after_results_simp
  rfl

theorem W1_w2l (c : Dev nD) : W1 m ρ c (Proc.devRef .tc main_arg5) = m ((c : Thread nD τ).loc main_arg5) := by
  show StableHlo.after hostOps0 (W0 m ρ c) (Proc.devRef .tc main_arg5) = _
  after_results_simp

theorem W1_b2 (c : Dev nD) : W1 m ρ c (Proc.devRef .tc main_arg6) = m ((c : Thread nD τ).loc main_arg6) := by
  show StableHlo.after hostOps0 (W0 m ρ c) (Proc.devRef .tc main_arg6) = _
  after_results_simp

theorem W1_w2r (c : Dev nD) : W1 m ρ c (Proc.devRef .tc main_arg7) = m ((c : Thread nD τ).loc main_arg7) := by
  show StableHlo.after hostOps0 (W0 m ρ c) (Proc.devRef .tc main_arg7) = _
  after_results_simp

/-- The hidden features: the first launch's output array. -/
def hidden (c : Dev nD) : S50000x96.Idx → EReal :=
  Blocks.layer1 (m ((c : Thread nD τ).loc main_arg0))
    (meanAgg (F := Ideal) (m ((c : Thread nD τ).loc main_arg0)) (srcOf (m ((c : Thread nD τ).loc main_arg1))) (dstOf (m ((c : Thread nD τ).loc main_arg1))))
    (truncf (F := Ideal) .bf16 (transpose S96x96 [1, 0] (m ((c : Thread nD τ).loc main_arg2)) transposes_S96x96_S96x96_1_0) bitsLt_bf16_f32)
    (truncf (F := Ideal) .bf16 (transpose S96x96 [1, 0] (m ((c : Thread nD τ).loc main_arg4)) transposes_S96x96_S96x96_1_0) bitsLt_bf16_f32)
    (shapeCast S1x96 (m ((c : Thread nD τ).loc main_arg3)) shapeCasts_S96_S1x96)

/-- After the first launch its output array holds the hidden features. -/
theorem W2_hidden (c : Dev nD) : W2 m ρ c (Proc.devRef .tc main_v28) = hidden m c := by
  refine (W2_arr m ρ c 5).trans ?_
  rw [Blocks.final0 (V1 m ρ) c, V1_x, V1_mean, V1_wl, V1_wr, V1_row]
  rfl

/-! ## Between the launches -/

theorem V3_h (c : Dev nD) : V3 m ρ c main_v28 = hidden m c := by
  show StableHlo.after hostOps1 (W2 m ρ c) (Proc.devRef .tc main_v28) = _
  after_results_simp
  exact W2_hidden m ρ c

set_option maxRecDepth 16384 in
theorem V3_mean (c : Dev nD) :
    V3 m ρ c main_v47 = meanAgg (F := Ideal) (hidden m c)
      (srcOf (m ((c : Thread nD τ).loc main_arg1))) (dstOf (m ((c : Thread nD τ).loc main_arg1))) := by
  have e : V3 m ρ c main_v47 = meanAgg (F := Ideal) (W2 m ρ c (Proc.devRef .tc main_v28))
      (W2 m ρ c (Proc.devRef .tc main_v1)) (W2 m ρ c (Proc.devRef .tc main_v3)) := by
    show StableHlo.after hostOps1 (W2 m ρ c) (Proc.devRef .tc main_v47) = _
    after_results_simp
    rfl
  rw [e, W2_hidden, W2_of_ne m ρ c main_v1 (by decide), W2_of_ne m ρ c main_v3 (by decide), W1_src, W1_dst]

theorem V3_wl (c : Dev nD) :
    V3 m ρ c main_v49 = truncf (F := Ideal) .bf16 (transpose S96x64 [1, 0] (m ((c : Thread nD τ).loc main_arg5)) transposes_S64x96_S96x64_1_0) bitsLt_bf16_f32 := by
  have e : V3 m ρ c main_v49 = truncf (F := Ideal) .bf16 (transpose S96x64 [1, 0] (W2 m ρ c (Proc.devRef .tc main_arg5)) transposes_S64x96_S96x64_1_0) bitsLt_bf16_f32 := by
    show StableHlo.after hostOps1 (W2 m ρ c) (Proc.devRef .tc main_v49) = _
    after_results_simp
  rw [e, W2_of_ne m ρ c main_arg5 (by decide), W1_w2l]

theorem V3_wr (c : Dev nD) :
    V3 m ρ c main_v51 = truncf (F := Ideal) .bf16 (transpose S96x64 [1, 0] (m ((c : Thread nD τ).loc main_arg7)) transposes_S64x96_S96x64_1_0) bitsLt_bf16_f32 := by
  have e : V3 m ρ c main_v51 = truncf (F := Ideal) .bf16 (transpose S96x64 [1, 0] (W2 m ρ c (Proc.devRef .tc main_arg7)) transposes_S64x96_S96x64_1_0) bitsLt_bf16_f32 := by
    show StableHlo.after hostOps1 (W2 m ρ c) (Proc.devRef .tc main_v51) = _
    after_results_simp
  rw [e, W2_of_ne m ρ c main_arg7 (by decide), W1_w2r]

theorem V3_row (c : Dev nD) :
    V3 m ρ c main_v52 = shapeCast S1x64 (m ((c : Thread nD τ).loc main_arg6)) shapeCasts_S64_S1x64 := by
  have e : V3 m ρ c main_v52 = shapeCast S1x64 (W2 m ρ c (Proc.devRef .tc main_arg6)) shapeCasts_S64_S1x64 := by
    show StableHlo.after hostOps1 (W2 m ρ c) (Proc.devRef .tc main_v52) = _
    after_results_simp
    rfl
  rw [e, W2_of_ne m ρ c main_arg6 (by decide), W1_b2]

/-- The program's result: the second layer of the hidden features. -/
def result (c : Dev nD) : S50000x64.Idx → EReal :=
  Blocks.layer2 (hidden m c)
    (meanAgg (F := Ideal) (hidden m c) (srcOf (m ((c : Thread nD τ).loc main_arg1))) (dstOf (m ((c : Thread nD τ).loc main_arg1))))
    (truncf (F := Ideal) .bf16 (transpose S96x64 [1, 0] (m ((c : Thread nD τ).loc main_arg5)) transposes_S64x96_S96x64_1_0) bitsLt_bf16_f32)
    (truncf (F := Ideal) .bf16 (transpose S96x64 [1, 0] (m ((c : Thread nD τ).loc main_arg7)) transposes_S64x96_S96x64_1_0) bitsLt_bf16_f32)
    (shapeCast S1x64 (m ((c : Thread nD τ).loc main_arg6)) shapeCasts_S64_S1x64)

/-- After the second launch its output array holds the result. -/
theorem W4_result (c : Dev nD) : W4 m ρ c (Proc.devRef .tc main_v53) = result m c := by
  refine (W4_arr m ρ c 5).trans ?_
  rw [Blocks.final1 (V3 m ρ) c, V3_h, V3_mean, V3_wl, V3_wr, V3_row]
  rfl

end Cert.KernelIdeal.HostValue

end
-- ==== Proof.KernelRun.lean ====
/-
  The kernel program's run with its result named. The program is four stretches in order — host operations, the first
  launch, host operations, the second launch — and its frame run ends with every unscoped buffer at the contents the
  stretches' fold leaves. Read at the result buffer that is the second layer of the hidden features; read at an argument it
  is the launch contents.
-/
import proofs.«115761_j60902636257634_1_alg».proof.Proof.KernelHost

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of @main terminates, nothing faulting, with every unscoped buffer of every core at the
    contents the four stretches leave. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run, read: the result buffer ends at the second layer of the hidden features, the arguments as launched. -/
theorem run : θ_run defs (onTc (τ := τ) (main (F := Ideal))) ⟨m, fun _ => 0, ρ⟩ (fun r => ∀ c : Dev nD,
      r.2.mem ((c.tc : Thread nD τ).loc main_v53) = HostValue.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v53 (by decide))).trans (HostValue.W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.RunValue

end
-- ==== Proof.RefOps.lean ====
/- The 89 host operations of the printed program's @main, in order, as one list: each statement without its
   sequencing wrapper, each call of a module-local function replaced by the callee's own statements over the call's
   operands and buffer record. A table of the program's text; nothing is proved about the operations here beyond
   that each touches TensorCore buffers only. -/
import proofs.«115761_j60902636257634_1_alg».proof.Proof.Gen.ReferenceIdeal
import Idealize.ShloMosaic.Lib.StableHlo.Run

noncomputable section

namespace Cert.ReferenceIdeal.Relisted

open Cert.ReferenceIdeal Cert.ReferenceIdeal.Gen Idealize.ShloMosaic Idealize.ShloMosaic.TcCoe Idealize.SL.Sem

variable {F : FTy → Type} [FloatOps F]

/-- @main's operations, in order. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst (constant S_ .f32 0x00000000#32),
    StableHlo.unary main_cst main_v11 (broadcastInDim S50000x96 ![] bcast_S_S50000x96 : (⟨S_, .f32⟩ : BufTy).Contents (Elt F) → (⟨S50000x96, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x96 ![0, 1] bcast_S50000x1_S50000x96_0_1 : (⟨S50000x1, .f32⟩ : BufTy).Contents (Elt F) → (⟨S50000x96, .f32⟩ : BufTy).Contents (Elt F)),
    StableHlo.binary main_v13 main_v21 main_v22 (Host.divf : (⟨S50000x96, .f32⟩ : BufTy).Contents (Elt F) → (⟨S50000x96, .f32⟩ : BufTy).Contents (Elt F) → (⟨S50000x96, .f32⟩ : BufTy).Contents (Elt F)),
    StableHlo.unary main_arg2 main_v23 ((transpose S96x96 [1, 0] · transposes_S96x96_S96x96_1_0) : (⟨S96x96, .f32⟩ : BufTy).Contents (Elt F) → (⟨S96x96, .f32⟩ : BufTy).Contents (Elt F)),
    StableHlo.binary main_arg0 main_v23 main_v24 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg3 main_v25 (broadcastInDim S1x96 ![1] bcast_S96_S1x96_1 : (⟨S96, .f32⟩ : BufTy).Contents (Elt F) → (⟨S1x96, .f32⟩ : BufTy).Contents (Elt F)),
    StableHlo.unary main_v25 main_v26 (broadcastInDim S50000x96 ![0, 1] bcast_S1x96_S50000x96_0_1 : (⟨S1x96, .f32⟩ : BufTy).Contents (Elt F) → (⟨S50000x96, .f32⟩ : BufTy).Contents (Elt F)),
    StableHlo.binary main_v24 main_v26 main_v27 (addf : (⟨S50000x96, .f32⟩ : BufTy).Contents (Elt F) → (⟨S50000x96, .f32⟩ : BufTy).Contents (Elt F) → (⟨S50000x96, .f32⟩ : BufTy).Contents (Elt F)),
    StableHlo.unary main_arg4 main_v28 ((transpose S96x96 [1, 0] · transposes_S96x96_S96x96_1_0) : (⟨S96x96, .f32⟩ : BufTy).Contents (Elt F) → (⟨S96x96, .f32⟩ : BufTy).Contents (Elt F)),
    StableHlo.binary main_v22 main_v28 main_v29 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v27 main_v29 main_v30 (addf : (⟨S50000x96, .f32⟩ : BufTy).Contents (Elt F) → (⟨S50000x96, .f32⟩ : BufTy).Contents (Elt F) → (⟨S50000x96, .f32⟩ : BufTy).Contents (Elt F)),
    StableHlo.TRef.nullary main_call0.cst (constant S_ .f32 0x00000000#32),
    StableHlo.TRef.unary main_call0.cst main_call0.v0 (broadcastInDim S50000x96 ![] bcast_S_S50000x96),
    StableHlo.TRef.binary (.of main_v30) main_call0.v0 main_call0.v1 (cmpf .ogt),
    StableHlo.TRef.nullary main_call0.cst_0 (constant S_ .f32 0x00000000#32),
    StableHlo.TRef.unary main_call0.cst_0 main_call0.v2 (broadcastInDim S50000x96 ![] bcast_S_S50000x96),
    StableHlo.TRef.binary (.of main_v30) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x96 ![] bcast_S_S50000x96),
    StableHlo.TRef.ternary main_call0.v3 main_call0.call0.v1 (.of main_v30) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x96 ![] bcast_S_S50000x96),
    StableHlo.TRef.binary main_call0.v6 main_call0.v5 main_call0.v7 mulf,
    StableHlo.TRef.ternary main_call0.v1 (.of main_v30) main_call0.v7 main_call0.call1.v0 select,
    StableHlo.unary main_arg1 main_v32 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v32 main_v33 rfl shapeCasts_S1x800000_S800000,
    StableHlo.unary main_arg1 main_v34 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v34 main_v35 rfl shapeCasts_S1x800000_S800000,
    StableHlo.nullary main_c_4 (constantI S_ 32 0#32),
    StableHlo.unary main_c_4 main_v36 (broadcastInDim S800000 ![] bcast_S_S800000 : (⟨S_, .i32⟩ : BufTy).Contents (Elt F) → (⟨S800000, .i32⟩ : BufTy).Contents (Elt F)),
    StableHlo.binary main_v33 main_v36 main_v37 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v38 (broadcastInDim S800000 ![] bcast_S_S800000 : (⟨S_, .i32⟩ : BufTy).Contents (Elt F) → (⟨S800000, .i32⟩ : BufTy).Contents (Elt F)),
    StableHlo.binary main_v33 main_v38 main_v39 (addi : (⟨S800000, .i32⟩ : BufTy).Contents (Elt F) → (⟨S800000, .i32⟩ : BufTy).Contents (Elt F) → (⟨S800000, .i32⟩ : BufTy).Contents (Elt F)),
    StableHlo.ternary main_v37 main_v39 main_v33 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v40 main_v41 (broadcastInDim S800000x1 ![0] bcast_S800000_S800000x1_0 : (⟨S800000, .i32⟩ : BufTy).Contents (Elt F) → (⟨S800000x1, .i32⟩ : BufTy).Contents (Elt F)),
    StableHlo.binary main_v31 main_v41 main_v42 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_6 (constant S_ .f32 0x00000000#32),
    StableHlo.unary main_cst_6 main_v43 (broadcastInDim S50000x96 ![] bcast_S_S50000x96 : (⟨S_, .f32⟩ : BufTy).Contents (Elt F) → (⟨S50000x96, .f32⟩ : BufTy).Contents (Elt F)),
    StableHlo.unary main_v35 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.nullary main_cst_7 (constant S_ .f32 0x3F800000#32),
    StableHlo.unary main_cst_7 main_v46 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v47 (broadcastInDim S50000 ![] bcast_S_S50000 : (⟨S_, .f32⟩ : BufTy).Contents (Elt F) → (⟨S50000, .f32⟩ : BufTy).Contents (Elt F)),
    StableHlo.unary main_v35 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v46 main_v49 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v50 (broadcastInDim S50000 ![] bcast_S_S50000 : (⟨S_, .f32⟩ : BufTy).Contents (Elt F) → (⟨S50000, .f32⟩ : BufTy).Contents (Elt F)),
    StableHlo.binary main_v49 main_v50 main_v51 (maximumf : (⟨S50000, .f32⟩ : BufTy).Contents (Elt F) → (⟨S50000, .f32⟩ : BufTy).Contents (Elt F) → (⟨S50000, .f32⟩ : BufTy).Contents (Elt F)),
    StableHlo.unary main_v51 main_v52 (broadcastInDim S50000x1 ![0] bcast_S50000_S50000x1_0 : (⟨S50000, .f32⟩ : BufTy).Contents (Elt F) → (⟨S50000x1, .f32⟩ : BufTy).Contents (Elt F)),
    StableHlo.unary main_v52 main_v53 (broadcastInDim S50000x96 ![0, 1] bcast_S50000x1_S50000x96_0_1 : (⟨S50000x1, .f32⟩ : BufTy).Contents (Elt F) → (⟨S50000x96, .f32⟩ : BufTy).Contents (Elt F)),
    StableHlo.binary main_v45 main_v53 main_v54 (Host.divf : (⟨S50000x96, .f32⟩ : BufTy).Contents (Elt F) → (⟨S50000x96, .f32⟩ : BufTy).Contents (Elt F) → (⟨S50000x96, .f32⟩ : BufTy).Contents (Elt F)),
    StableHlo.unary main_arg5 main_v55 ((transpose S96x64 [1, 0] · transposes_S64x96_S96x64_1_0) : (⟨S64x96, .f32⟩ : BufTy).Contents (Elt F) → (⟨S96x64, .f32⟩ : BufTy).Contents (Elt F)),
    StableHlo.binary main_v31 main_v55 main_v56 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg6 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S50000x64 ![0, 1] bcast_S1x64_S50000x64_0_1 : (⟨S1x64, .f32⟩ : BufTy).Contents (Elt F) → (⟨S50000x64, .f32⟩ : BufTy).Contents (Elt F)),
    StableHlo.binary main_v56 main_v58 main_v59 (addf : (⟨S50000x64, .f32⟩ : BufTy).Contents (Elt F) → (⟨S50000x64, .f32⟩ : BufTy).Contents (Elt F) → (⟨S50000x64, .f32⟩ : BufTy).Contents (Elt F)),
    StableHlo.unary main_arg7 main_v60 ((transpose S96x64 [1, 0] · transposes_S64x96_S96x64_1_0) : (⟨S64x96, .f32⟩ : BufTy).Contents (Elt F) → (⟨S96x64, .f32⟩ : BufTy).Contents (Elt F)),
    StableHlo.binary main_v54 main_v60 main_v61 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.binary main_v59 main_v61 main_v62 (addf : (⟨S50000x64, .f32⟩ : BufTy).Contents (Elt F) → (⟨S50000x64, .f32⟩ : BufTy).Contents (Elt F) → (⟨S50000x64, .f32⟩ : BufTy).Contents (Elt F)) ]

/-- Every operation touches TensorCore buffers only. -/
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub ..⟩

end Cert.ReferenceIdeal.Relisted

end
-- ==== Proof.RefRun.lean ====
/-
  The reference's run read back. Its @main is a straight line of host operations (the activation's helper functions
  unfolded at their calls), so every weakly fair execution ends with each buffer at the operations' composed value of the
  launch contents. That value is named here stage by stage:

  • the two endpoint rows of the edge list (row 0 the sources, row 1 the destinations);
  • the mean aggregate of a feature matrix over the edges: gather the source rows (a negative source index wrapped by the
    row count), add them into the destination rows, count the edges into each destination, and divide by max(count, 1);
  • a layer before activation as the host spells it: x·Wₗᵀ, the bias copied down the rows added, then mean·Wᵣᵀ added;
  • the exponential linear unit as the host spells it (two selects on "above zero" around 1·(e^g − 1));
  • the two layers composed.
-/
import proofs.«115761_j60902636257634_1_alg».proof.Proof.RefOps
import Idealize.ShloMosaic.Lib.StableHlo.Run

noncomputable section

namespace Cert.ReferenceIdeal.RefValue

open Cert.ReferenceIdeal Cert.ReferenceIdeal.Gen Cert.ReferenceIdeal.Relisted Idealize.ShloMosaic Idealize.ShloMosaic.TcCoe Idealize.SL.Sem
  Idealize.ShloMosaic.StableHlo

variable {F : FTy → Type} [FloatOps F]

/-- The edges' source endpoints: row 0 of the edge list. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination endpoints: row 1 of the edge list. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A source index as the gather takes it: a negative one wrapped by the number of rows, kept as a column. -/
def wrapped (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The mean of the features of each node's in-neighbours: the gathered source rows summed into the destination rows,
    divided by the number of edges into the row, at least one. -/
def meanAgg (feat : (⟨S50000x96, .f32⟩ : BufTy).Contents (Elt F)) (s d : (⟨S800000, .i32⟩ : BufTy).Contents (Elt F)) : (⟨S50000x96, .f32⟩ : BufTy).Contents (Elt F) :=
  Host.divf
    (Host.scatterAdd scatter_S50000x96_S800000x1_S800000x96_1_0_0_1
      (broadcastInDim S50000x96 ![] bcast_S_S50000x96 (constant S_ .f32 0x00000000#32))
      (broadcastInDim S800000x1 ![0] bcast_S800000_S800000x1_0 d)
      (Host.gather gather_S50000x96_S800000x1_S800000x96_1_0_n_n_0_1_196 feat (wrapped s)))
    (broadcastInDim S50000x96 ![0, 1] bcast_S50000x1_S50000x96_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

/-- The first layer before its activation, as the host spells it. -/
def pre1 (x mean : (⟨S50000x96, .f32⟩ : BufTy).Contents (Elt F)) (wl : (⟨S96x96, .f32⟩ : BufTy).Contents (Elt F)) (b : (⟨S96, .f32⟩ : BufTy).Contents (Elt F))
    (wr : (⟨S96x96, .f32⟩ : BufTy).Contents (Elt F)) : (⟨S50000x96, .f32⟩ : BufTy).Contents (Elt F) :=
  addf
    (addf (Host.dotGeneral dot_S50000x96_S96x96_S50000x96_1_0_0_1_n_n none x (transpose S96x96 [1, 0] wl transposes_S96x96_S96x96_1_0))
      (broadcastInDim S50000x96 ![0, 1] bcast_S1x96_S50000x96_0_1 (broadcastInDim S1x96 ![1] bcast_S96_S1x96_1 b)))
    (Host.dotGeneral dot_S50000x96_S96x96_S50000x96_1_0_0_1_n_n none mean (transpose S96x96 [1, 0] wr transposes_S96x96_S96x96_1_0))

/-- The exponential linear unit as the host spells it. -/
def eluHost (y : (⟨S50000x96, .f32⟩ : BufTy).Contents (Elt F)) : (⟨S50000x96, .f32⟩ : BufTy).Contents (Elt F) :=
  select (cmpf .ogt y (broadcastInDim S50000x96 ![] bcast_S_S50000x96 (constant S_ .f32 0x00000000#32))) y
    (mulf (broadcastInDim S50000x96 ![] bcast_S_S50000x96 (constant S_ .f32 0x3F800000#32))
      (Host.expm1
        (select (cmpf .ogt y (broadcastInDim S50000x96 ![] bcast_S_S50000x96 (constant S_ .f32 0x00000000#32)))
          (broadcastInDim S50000x96 ![] bcast_S_S50000x96 (id (constant S_ .f32 0x00000000#32))) y)))

/-- The second layer (no activation), as the host spells it. -/
def out2 (h mean : (⟨S50000x96, .f32⟩ : BufTy).Contents (Elt F)) (wl : (⟨S64x96, .f32⟩ : BufTy).Contents (Elt F)) (b : (⟨S64, .f32⟩ : BufTy).Contents (Elt F))
    (wr : (⟨S64x96, .f32⟩ : BufTy).Contents (Elt F)) : (⟨S50000x64, .f32⟩ : BufTy).Contents (Elt F) :=
  addf
    (addf (Host.dotGeneral dot_S50000x96_S96x64_S50000x64_1_0_0_1_n_n none h (transpose S96x64 [1, 0] wl transposes_S64x96_S96x64_1_0))
      (broadcastInDim S50000x64 ![0, 1] bcast_S1x64_S50000x64_0_1 (broadcastInDim S1x64 ![1] bcast_S64_S1x64_1 b)))
    (Host.dotGeneral dot_S50000x96_S96x64_S50000x64_1_0_0_1_n_n none mean (transpose S96x64 [1, 0] wr transposes_S64x96_S96x64_1_0))

/-- The hidden features: the first layer through the unit. -/
def hidden (x : (⟨S50000x96, .f32⟩ : BufTy).Contents (Elt F)) (ei : (⟨S2x800000, .i32⟩ : BufTy).Contents (Elt F)) (w1l : (⟨S96x96, .f32⟩ : BufTy).Contents (Elt F))
    (b1 : (⟨S96, .f32⟩ : BufTy).Contents (Elt F)) (w1r : (⟨S96x96, .f32⟩ : BufTy).Contents (Elt F)) : (⟨S50000x96, .f32⟩ : BufTy).Contents (Elt F) :=
  eluHost (pre1 x (meanAgg x (srcOf ei) (dstOf ei)) w1l b1 w1r)

/-- The reference's result as one function of its eight arguments. -/
def result (x : (⟨S50000x96, .f32⟩ : BufTy).Contents (Elt F)) (ei : (⟨S2x800000, .i32⟩ : BufTy).Contents (Elt F)) (w1l : (⟨S96x96, .f32⟩ : BufTy).Contents (Elt F))
    (b1 : (⟨S96, .f32⟩ : BufTy).Contents (Elt F)) (w1r : (⟨S96x96, .f32⟩ : BufTy).Contents (Elt F)) (w2l : (⟨S64x96, .f32⟩ : BufTy).Contents (Elt F)) (b2 : (⟨S64, .f32⟩ : BufTy).Contents (Elt F))
    (w2r : (⟨S64x96, .f32⟩ : BufTy).Contents (Elt F)) : (⟨S50000x64, .f32⟩ : BufTy).Contents (Elt F) :=
  out2 (hidden x ei w1l b1 w1r) (meanAgg (hidden x ei w1l b1 w1r) (srcOf ei) (dstOf ei)) w2l b2 w2r

-- the chain of binds re-associated: one rewrite under the chain per statement
set_option maxRecDepth 4096 in
set_option maxHeartbeats 8000000 in
/-- @main is that straight line: the windows and the helper functions unfolded, sequencing re-associated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

attribute [local irreducible] Host.gather Host.scatterAdd in
set_option maxRecDepth 16384 in
set_option maxHeartbeats 4000000 in
/-- The fold of the operations at the result buffer is `result` of the launch contents of the eight arguments. -/
theorem out_eq (V : Valuation τ sig (Elt F)) :
    after ops V (main_v62 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

set_option maxRecDepth 16384 in
set_option maxHeartbeats 4000000 in
/-- No operation writes an argument. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig) := by
  refine ⟨?_, ?_, ?_, ?_, ?_, ?_, ?_, ?_⟩ <;> after_results_simp

/-- From any memory with zero counters every weakly fair execution of @main terminates, nothing faulting, with the
    result buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have ha := args_eq (F := F) (launchContents m c)
      ⟨(h c main_v62).trans (out_eq (launchContents m c)),
       (h c main_arg0).trans ha.1, (h c main_arg1).trans ha.2.1, (h c main_arg2).trans ha.2.2.1,
       (h c main_arg3).trans ha.2.2.2.1, (h c main_arg4).trans ha.2.2.2.2.1, (h c main_arg5).trans ha.2.2.2.2.2.1,
       (h c main_arg6).trans ha.2.2.2.2.2.2.1, (h c main_arg7).trans ha.2.2.2.2.2.2.2⟩)
    (run_seq scopedRefs_eq scopedSems_eq defs main (fun _ => ops) main_eq (fun _ => ops_sub) m ρ)

end Cert.ReferenceIdeal.RefValue

end
-- ==== Proof.Bridge.lean ====
/-
  The two programs compute one function. The host parts are the same operations on both sides (the endpoint rows, the mean
  over in-neighbours), so they are carried as they stand; what differs is how a layer is spelt, and the two spellings were
  read at an entry in the layer's module: the same three terms added in another order, the same unit.
-/
import proofs.«115761_j60902636257634_1_alg».proof.Proof.RefRun
import proofs.«115761_j60902636257634_1_alg».proof.Proof.KernelHost

noncomputable section

namespace Cert.Bridge

open Idealize.ShloMosaic Idealize.ShloMosaic.TcCoe Idealize.SL.Sem Idealize.ShloMosaic.ValueIdx

attribute [local irreducible] Host.gather Host.scatterAdd

/-- The first layer through the unit: the reference's hidden features are the first launch's function of the same
    arrays, the weights transposed and the bias kept as a row on the way. -/
theorem hidden_eq (x : Cert.ReferenceIdeal.S50000x96.Idx → EReal) (ei : Cert.ReferenceIdeal.S2x800000.Idx → BitVec 32)
    (w1l : Cert.ReferenceIdeal.S96x96.Idx → EReal) (b1 : Cert.ReferenceIdeal.S96.Idx → EReal)
    (w1r : Cert.ReferenceIdeal.S96x96.Idx → EReal) :
    Cert.ReferenceIdeal.RefValue.hidden (F := Ideal) x ei w1l b1 w1r
      = Cert.KernelIdeal.Blocks.layer1 x
          (Cert.ReferenceIdeal.RefValue.meanAgg (F := Ideal) x (Cert.ReferenceIdeal.RefValue.srcOf ei) (Cert.ReferenceIdeal.RefValue.dstOf ei))
          (truncf (F := Ideal) .bf16 (transpose Cert.KernelIdeal.S96x96 [1, 0] w1l Cert.KernelIdeal.Facts₀.transposes_S96x96_S96x96_1_0) Cert.KernelIdeal.Facts₀.bitsLt_bf16_f32)
          (truncf (F := Ideal) .bf16 (transpose Cert.KernelIdeal.S96x96 [1, 0] w1r Cert.KernelIdeal.Facts₀.transposes_S96x96_S96x96_1_0) Cert.KernelIdeal.Facts₀.bitsLt_bf16_f32)
          (shapeCast Cert.KernelIdeal.S1x96 b1 Cert.KernelIdeal.Facts₀.shapeCasts_S96_S1x96) := by
  funext j
  obtain ⟨r, c, rfl⟩ : ∃ (r : Fin 50000) (c : Fin 96), j = ix2 r c := ⟨j 0, j 1, eq_ix2 j⟩
  have h1 : Cert.ReferenceIdeal.RefValue.hidden (F := Ideal) x ei w1l b1 w1r (ix2 r c)
      = Sage.elu (Cert.ReferenceIdeal.RefValue.pre1 (F := Ideal) x
          (Cert.ReferenceIdeal.RefValue.meanAgg (F := Ideal) x (Cert.ReferenceIdeal.RefValue.srcOf ei) (Cert.ReferenceIdeal.RefValue.dstOf ei))
          w1l b1 w1r (ix2 r c)) :=
    Sage.elu_host _
  have h2 := Sage.host_affine_apply (N := 50000) (K := 96) (C := 96) x
    (Cert.ReferenceIdeal.RefValue.meanAgg (F := Ideal) x (Cert.ReferenceIdeal.RefValue.srcOf ei) (Cert.ReferenceIdeal.RefValue.dstOf ei))
    (transpose Cert.ReferenceIdeal.S96x96 [1, 0] w1l Cert.ReferenceIdeal.Facts₀.transposes_S96x96_S96x96_1_0)
    (transpose Cert.ReferenceIdeal.S96x96 [1, 0] w1r Cert.ReferenceIdeal.Facts₀.transposes_S96x96_S96x96_1_0)
    b1 Cert.ReferenceIdeal.Facts₀.bcast_S96_S1x96_1 Cert.ReferenceIdeal.Facts₀.bcast_S1x96_S50000x96_0_1 r c
  refine h1.trans ((congrArg Sage.elu h2).trans (congrArg Sage.elu ?_))
  unfold Sage.affineAt
  refine congrArg₂ (· + ·) rfl ?_
  exact (shapeCast_a_1a_apply b1 _ (0 : Fin 1) c).symm

/-- The second layer: the reference's spelling is the second launch's function of the same arrays. -/
theorem out2_eq (h mn : Cert.ReferenceIdeal.S50000x96.Idx → EReal)
    (w2l : Cert.ReferenceIdeal.S64x96.Idx → EReal) (b2 : Cert.ReferenceIdeal.S64.Idx → EReal)
    (w2r : Cert.ReferenceIdeal.S64x96.Idx → EReal) :
    Cert.ReferenceIdeal.RefValue.out2 (F := Ideal) h mn w2l b2 w2r
      = Cert.KernelIdeal.Blocks.layer2 h mn
          (truncf (F := Ideal) .bf16 (transpose Cert.KernelIdeal.S96x64 [1, 0] w2l Cert.KernelIdeal.Facts₀.transposes_S64x96_S96x64_1_0) Cert.KernelIdeal.Facts₀.bitsLt_bf16_f32)
          (truncf (F := Ideal) .bf16 (transpose Cert.KernelIdeal.S96x64 [1, 0] w2r Cert.KernelIdeal.Facts₀.transposes_S64x96_S96x64_1_0) Cert.KernelIdeal.Facts₀.bitsLt_bf16_f32)
          (shapeCast Cert.KernelIdeal.S1x64 b2 Cert.KernelIdeal.Facts₀.shapeCasts_S64_S1x64) := by
  funext j
  obtain ⟨r, c, rfl⟩ : ∃ (r : Fin 50000) (c : Fin 64), j = ix2 r c := ⟨j 0, j 1, eq_ix2 j⟩
  have h2 := Sage.host_affine_apply (N := 50000) (K := 96) (C := 64) h mn
    (transpose Cert.ReferenceIdeal.S96x64 [1, 0] w2l Cert.ReferenceIdeal.Facts₀.transposes_S64x96_S96x64_1_0)
    (transpose Cert.ReferenceIdeal.S96x64 [1, 0] w2r Cert.ReferenceIdeal.Facts₀.transposes_S64x96_S96x64_1_0)
    b2 Cert.ReferenceIdeal.Facts₀.bcast_S64_S1x64_1 Cert.ReferenceIdeal.Facts₀.bcast_S1x64_S50000x64_0_1 r c
  refine (h2 : Cert.ReferenceIdeal.RefValue.out2 (F := Ideal) h mn w2l b2 w2r (ix2 r c) = _).trans ?_
  unfold Sage.affineAt
  refine congrArg₂ (· + ·) rfl ?_
  exact (shapeCast_a_1a_apply b2 _ (0 : Fin 1) c).symm

/-- The reference's result of the kernel program's launch arguments is the kernel program's result. -/
theorem result_eq (m : (ℓ : Loc Cert.KernelIdeal.nD Cert.KernelIdeal.τ Cert.KernelIdeal.sig) → Buf (Elt Ideal) ℓ)
    (c : Dev Cert.KernelIdeal.nD) :
    Cert.ReferenceIdeal.RefValue.result (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.HostValue.result m c := by
  have hh : Cert.ReferenceIdeal.RefValue.hidden (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.HostValue.hidden m c :=
    (hidden_eq _ _ _ _ _).trans rfl
  unfold Cert.ReferenceIdeal.RefValue.result
  rw [hh, out2_eq]
  rfl

end Cert.Bridge

end
-- ==== Proof.lean ====
/-
  Two layers of mean-aggregating graph convolution over 50000 nodes and 800000 edges, the first through the exponential
  linear unit: a kernel program that computes each layer's dense part in a launch of ten blocks of 5000 rows, against the
  plain reference.

  Both programs build the mean of the in-neighbours' features with the same host operations (gather the source rows, add
  them into the destination rows, divide by the edge count, at least one). A layer is then
      x·Wₗᵀ + mean·Wᵣᵀ + b      entry by entry      Σ_k x(r,k)·Wₗ(c,k) + Σ_k mean(r,k)·Wᵣ(c,k) + b(c).
  The kernel adds the two products first and the bias last, the reference adds the bias between them; on the extended
  reals addition is commutative and associative, so the two agree with no appeal to finiteness. The narrower float format
  on the way into the matrix unit is the identity on exact values, a product accumulated into zero is the host's product,
  and the unit's two spellings (y above zero, e^y − 1 otherwise; the host's through 1·(e^g − 1) at a guarded argument)
  are one function. The blocks of a launch tile its output, so each launch's output array is the layer of its input
  arrays, and the second launch reads the first one's output through the same host operations as the reference reads
  its hidden features.

  Frames: the two kernel programs' are the region-by-region frame runs; the reference's is its straight-line run with the
  result dropped. The idealization rewrote nothing, so there is nothing to preserve.
-/
import proofs.«115761_j60902636257634_1_alg».proof.Defs
import proofs.«115761_j60902636257634_1_alg».proof.Proof.Gen.Kernel
import proofs.«115761_j60902636257634_1_alg».proof.Proof.Gen.KernelIdeal
import proofs.«115761_j60902636257634_1_alg».proof.Proof.Gen.ReferenceIdeal
import proofs.«115761_j60902636257634_1_alg».proof.Proof.Gen.Pre_finite_inputs
import proofs.«115761_j60902636257634_1_alg».proof.Proof.FrameKernel
import proofs.«115761_j60902636257634_1_alg».proof.Proof.KernelRun
import proofs.«115761_j60902636257634_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the second layer of the hidden features of the same arguments. -/
theorem algebraic : Cert.algebraic_KernelIdeal_ReferenceIdeal := by
  intro m ρ m' ρ' _ hagree
  refine ⟨fun c => Cert.KernelIdeal.HostValue.result m c, Cert.KernelIdeal.RunValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7⟩ := hagree c
  rw [e0, e1, e2, e3, e4, e5, e6, e7]
  exact Cert.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
